-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x2 : Shape := ⟨2, ![262144, 2]⟩
abbrev S256x2 : Shape := ⟨2, ![256, 2]⟩
abbrev S256 : Shape := ⟨1, ![256]⟩
abbrev S1x256x2 : Shape := ⟨3, ![1, 256, 2]⟩
abbrev S_ : Shape := ⟨0, ![]⟩

class Facts : Prop where
  bcast_S_S262144x2 : S_.BroadcastsInDim S262144x2 (![] : Fin 0 → Fin S262144x2.rank)
  reducesTo_S262144x2_S_d0_1 : S262144x2.ReducesTo [0, 1] S_
  h_S_ : 0 < S_.numel
  bcast_S_S256x2 : S_.BroadcastsInDim S256x2 (![] : Fin 0 → Fin S256x2.rank)
  reducesTo_S256x2_S_d0_1 : S256x2.ReducesTo [0, 1] S_
  bcast_S_S256 : S_.BroadcastsInDim S256 (![] : Fin 0 → Fin S256.rank)
  reducesTo_S256_S_d0 : S256.ReducesTo [0] S_
  bcast_S_S1x256x2 : S_.BroadcastsInDim S1x256x2 (![] : Fin 0 → Fin S1x256x2.rank)
  reducesTo_S1x256x2_S_d0_1_2 : S1x256x2.ReducesTo [0, 1, 2] S_

variable [Facts]

def fn_part1 {F : FTy → Type} [FloatOps F] (main_arg4 : FVec F S256 .f32) (main_v13 : IVec S_ 1) (main_v16 : IVec S1x256x2 1) : IVec S_ 1 :=
  let main_c_5 : IVec S_ 1 := constantI S_ 1 1#1
  let main_v17 : IVec S_ 1 := (fun x v => Host.reduce IntOp.andi x v reducesTo_S1x256x2_S_d0_1_2 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S262144x2 .f32) (main_arg1 : FVec F S256x2 .f32) (main_arg2 : FVec F S256 .f32) (main_arg3 : FVec F S1x256x2 .f32) (main_arg4 : FVec F S256 .f32) : IVec S_ 1 :=
  let main_v0 : FVec F S262144x2 .f32 := Host.absf main_arg0
  let main_cst : FVec F S_ .f32 := constant S_ .f32 0x7F800000#32
  let main_v1 : FVec F S262144x2 .f32 := broadcastInDim S262144x2 ![] bcast_S_S262144x2 main_cst
  let main_v2 : IVec S262144x2 1 := cmpf .olt main_v0 main_v1
  let main_c : IVec S_ 1 := constantI S_ 1 1#1
  let main_v3 : IVec S_ 1 := (fun x v => Host.reduce IntOp.andi x v reducesTo_S262144x2_S_d0_1 h_S_) main_v2 main_c
  let main_v4 : FVec F S256x2 .f32 := Host.absf main_arg1
  let main_cst_0 : FVec F S_ .f32 := constant S_ .f32 0x7F800000#32
  let main_v5 : FVec F S256x2 .f32 := broadcastInDim S256x2 ![] bcast_S_S256x2 main_cst_0
  let main_v6 : IVec S256x2 1 := cmpf .olt main_v4 main_v5
  let main_c_1 : IVec S_ 1 := constantI S_ 1 1#1
  let main_v7 : IVec S_ 1 := (fun x v => Host.reduce IntOp.andi x v reducesTo_S256x2_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1x256x2 .f32 := Host.absf main_arg3
  let main_cst_4 : FVec F S_ .f32 := constant S_ .f32 0x7F800000#32
  let main_v15 : FVec F S1x256x2 .f32 := broadcastInDim S1x256x2 ![] bcast_S_S1x256x2 main_cst_4
  let main_v16 : IVec S1x256x2 1 := cmpf .olt main_v14 main_v15
  fn_part1 (F := F) main_arg4 main_v13 main_v16
-- ==== Kernel.lean ====
abbrev S262144x2 : Shape := ⟨2, ![262144, 2]⟩
abbrev S256x2 : Shape := ⟨2, ![256, 2]⟩
abbrev S256 : Shape := ⟨1, ![256]⟩
abbrev S1x256x2 : Shape := ⟨3, ![1, 256, 2]⟩
abbrev S2x256 : Shape := ⟨2, ![2, 256]⟩
abbrev S256x1 : Shape := ⟨2, ![256, 1]⟩
abbrev S_ : Shape := ⟨0, ![]⟩
abbrev S1x256 : Shape := ⟨2, ![1, 256]⟩
abbrev S262144x256 : Shape := ⟨2, ![262144, 256]⟩
abbrev S8192x2 : Shape := ⟨2, ![8192, 2]⟩
abbrev S8192x256 : Shape := ⟨2, ![8192, 256]⟩
abbrev S8192x1 : Shape := ⟨2, ![8192, 1]⟩

abbrev nBuf : Space → Nat
  | .hbm => 25
  | .vmem => 9
  | .smem => 0
  | _ => 0

abbrev bufTy : (tb : Table) → Fin (tcTables nBuf tb) → BufTy
  | .hbm, ⟨0, _⟩ => ⟨S262144x2, .f32⟩
  | .hbm, ⟨1, _⟩ => ⟨S256x2, .f32⟩
  | .hbm, ⟨2, _⟩ => ⟨S256, .f32⟩
  | .hbm, ⟨3, _⟩ => ⟨S1x256x2, .f32⟩
  | .hbm, ⟨4, _⟩ => ⟨S256, .f32⟩
  | .hbm, ⟨5, _⟩ => ⟨S256x2, .f32⟩
  | .hbm, ⟨6, _⟩ => ⟨S2x256, .f32⟩
  | .hbm, ⟨7, _⟩ => ⟨S256x1, .f32⟩
  | .hbm, ⟨8, _⟩ => ⟨S256x2, .f32⟩
  | .hbm, ⟨9, _⟩ => ⟨S256x2, .f32⟩
  | .hbm, ⟨10, _⟩ => ⟨S2x256, .f32⟩
  | .hbm, ⟨11, _⟩ => ⟨S256x2, .f32⟩
  | .hbm, ⟨12, _⟩ => ⟨S_, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S1x256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S1x256, .f32⟩
  | .hbm, ⟨23, _⟩ => ⟨S1x256, .f32⟩
  | .hbm, ⟨24, _⟩ => ⟨S262144x256, .f32⟩
  | .local _ .vmem, ⟨0, _⟩ => ⟨S8192x2, .f32⟩
  | .local _ .vmem, ⟨1, _⟩ => ⟨S8192x2, .f32⟩
  | .local _ .vmem, ⟨2, _⟩ => ⟨S2x256, .f32⟩
  | .local _ .vmem, ⟨3, _⟩ => ⟨S2x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S8192x256, .f32⟩
  | .local _ .vmem, ⟨8, _⟩ => ⟨S8192x256, .f32⟩
  | _, _ => ⟨S262144x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1x256x2_S256x2 : S1x256x2.ShapeCasts S256x2
  transposes_S256x2_S2x256_1_0 : S256x2.Transposes [1, 0] S2x256
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  reducesTo_S256x2_S256_d1 : S256x2.ReducesTo [1] S256
  h_S_ : 0 < S_.numel
  bcast_S_S256 : S_.BroadcastsInDim S256 (![] : Fin 0 → Fin S256.rank)
  shapeCasts_S256_S1x256 : S256.ShapeCasts S1x256
  inb_S8192x2_S8192x2_0_0 : ∀ a, (![0, 0] : Fin 2 → Nat) a + S8192x2.size a ≤ S8192x2.size a
  h_S8192x2 : 0 < S8192x2.numel
  slices_S8192x2_o0_0_S8192x1 : S8192x2.Slices ![0, 0] S8192x1
  slices_S8192x2_o0_1_S8192x1 : S8192x2.Slices ![0, 1] S8192x1
  inb_S2x256_S2x256_0_0 : ∀ a, (![0, 0] : Fin 2 → Nat) a + S2x256.size a ≤ S2x256.size a
  h_S2x256 : 0 < S2x256.numel
  shapeCasts_S2x256_S2x256 : S2x256.ShapeCasts S2x256
  slices_S2x256_o0_0_S1x256 : S2x256.Slices ![0, 0] S1x256
  slices_S2x256_o1_0_S1x256 : S2x256.Slices ![1, 0] S1x256
  broadcasts_S8192x1_S8192x256 : S8192x1.Broadcasts S8192x256
  broadcasts_S1x256_S8192x256 : S1x256.Broadcasts S8192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S8192x256_S8192x256_0_0 : ∀ a, (![0, 0] : Fin 2 → Nat) a + S8192x256.size a ≤ S8192x256.size a
  h_S8192x256 : 0 < S8192x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S262144x2.size a
  hwx0_0 : ∀ i : grid0.Coords, EltTy.bits .f32 = 32 ∨ (Rect.block (s := S262144x2) S8192x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x256.size a ≤ S2x256.size a
  hwx0_1 : ∀ i : grid0.Coords, EltTy.bits .f32 = 32 ∨ (Rect.block (s := S2x256) S2x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x256.size a ≤ S2x256.size a
  hwx0_2 : ∀ i : grid0.Coords, EltTy.bits .f32 = 32 ∨ (Rect.block (s := S2x256) S2x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x256.size a ≤ S262144x256.size a
  hwx0_6 : ∀ i : grid0.Coords, EltTy.bits .f32 = 32 ∨ (Rect.block (s := S262144x256) S8192x256.size (cc0_transform_6 i) (hinb0_6 i)).WholeWords (EltTy.packing .f32)

variable [Facts₀]

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S8192x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S262144x2 : Shape := ⟨2, ![262144, 2]⟩
abbrev S256x2 : Shape := ⟨2, ![256, 2]⟩
abbrev S256 : Shape := ⟨1, ![256]⟩
abbrev S1x256x2 : Shape := ⟨3, ![1, 256, 2]⟩
abbrev S2x256 : Shape := ⟨2, ![2, 256]⟩
abbrev S262144x256 : Shape := ⟨2, ![262144, 256]⟩
abbrev S1x256 : Shape := ⟨2, ![1, 256]⟩
abbrev S262144x1x2 : Shape := ⟨3, ![262144, 1, 2]⟩
abbrev S262144x256x2 : Shape := ⟨3, ![262144, 256, 2]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S262144x2, .f32⟩
  | .hbm, ⟨1, _⟩ => ⟨S256x2, .f32⟩
  | .hbm, ⟨2, _⟩ => ⟨S256, .f32⟩
  | .hbm, ⟨3, _⟩ => ⟨S1x256x2, .f32⟩
  | .hbm, ⟨4, _⟩ => ⟨S256, .f32⟩
  | .hbm, ⟨5, _⟩ => ⟨S2x256, .f32⟩
  | .hbm, ⟨6, _⟩ => ⟨S262144x256, .f32⟩
  | .hbm, ⟨7, _⟩ => ⟨S1x256, .f32⟩
  | .hbm, ⟨8, _⟩ => ⟨S262144x256, .f32⟩
  | .hbm, ⟨9, _⟩ => ⟨S262144x256, .f32⟩
  | .hbm, ⟨10, _⟩ => ⟨S262144x1x2, .f32⟩
  | .hbm, ⟨11, _⟩ => ⟨S262144x256x2, .f32⟩
  | .hbm, ⟨12, _⟩ => ⟨S262144x256x2, .f32⟩
  | .hbm, ⟨13, _⟩ => ⟨S262144x256x2, .f32⟩
  | .hbm, ⟨14, _⟩ => ⟨S262144x256x2, .f32⟩
  | .hbm, ⟨15, _⟩ => ⟨S_, .f32⟩
  | .hbm, ⟨16, _⟩ => ⟨S262144x256, .f32⟩
  | .hbm, ⟨17, _⟩ => ⟨S262144x256, .f32⟩
  | .hbm, ⟨18, _⟩ => ⟨S_, .f32⟩
  | .hbm, ⟨19, _⟩ => ⟨S262144x256, .f32⟩
  | .hbm, ⟨20, _⟩ => ⟨S262144x256, .f32⟩
  | .hbm, ⟨21, _⟩ => ⟨S1x256, .f32⟩
  | .hbm, ⟨22, _⟩ => ⟨S262144x256, .f32⟩
  | .hbm, ⟨23, _⟩ => ⟨S262144x256, .f32⟩
  | .hbm, ⟨24, _⟩ => ⟨S262144x256, .f32⟩
  | .hbm, ⟨25, _⟩ => ⟨S262144x256, .f32⟩
  | _, _ => ⟨S262144x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  transposes_S256x2_S2x256_1_0 : S256x2.Transposes [1, 0] S2x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S262144x2_S262144x1x2_0_2 : S262144x2.BroadcastsInDim S262144x1x2 (![0, 2] : Fin 2 → Fin S262144x1x2.rank)
  bcast_S262144x1x2_S262144x256x2_0_1_2 : S262144x1x2.BroadcastsInDim S262144x256x2 (![0, 1, 2] : Fin 3 → Fin S262144x256x2.rank)
  bcast_S1x256x2_S262144x256x2_0_1_2 : S1x256x2.BroadcastsInDim S262144x256x2 (![0, 1, 2] : Fin 3 → Fin S262144x256x2.rank)
  reducesTo_S262144x256x2_S262144x256_d2 : S262144x256x2.ReducesTo [2] S262144x256
  h_S_ : 0 < S_.numel
  bcast_S_S262144x256 : S_.BroadcastsInDim S262144x256 (![] : Fin 0 → Fin S262144x256.rank)
  dot_S262144x2_S2x256_S262144x256_1_0_0_1_n_n_wf : DotDims.WF S262144x2 S2x256 S262144x256 [1] [0] [0] [1] [] []

variable [Facts₀]

def dot_S262144x2_S2x256_S262144x256_1_0_0_1_n_n : DotDims S262144x2 S2x256 S262144x256 where
  lhsContracting := [1]
  rhsContracting := [0]
  lhsNonContracting := [0]
  rhsNonContracting := [1]
  lhsBatch := []
  rhsBatch := []
  wf := dot_S262144x2_S2x256_S262144x256_1_0_0_1_n_n_wf

class Facts : Prop extends Facts₀ where

variable [Facts]
-- ==== Proof.Spec.lean ====
/-
  The feature map both programs compute, as a function of the five argument arrays, in the two arrangements
  the two programs use, and the law that joins them.

  For a row r (a point x_r = (x[r,0], x[r,1]) of the plane) and an output feature o, with weights W[o,·], phase
  b[o], centre mu_o = (mu[0,o,0], mu[0,o,1]) and bandwidth gamma[o], the value is

      sin(⟨x_r, W_o⟩ + b[o]) · exp(-½ · |x_r - mu_o|² · gamma[o]).

  The DIRECT arrangement takes the squared distance as the sum over the two axes of (x[r,k] - mu[0,o,k])². The
  EXPANDED arrangement multiplies the square out,

      -½·gamma·|x - mu|² = (-½·gamma)·|x|² + ⟨x, gamma·mu⟩ + (-½·gamma)·|mu|²,

  so that everything depending only on o is a per-feature coefficient. Multiplying the square out uses
  distributivity, which on the extended reals holds for real numbers only: the two arrangements agree where the
  coordinates, the centres and the bandwidths are real (the weights and the phase may be anything, the inner
  product ⟨x_r, W_o⟩ being the same two-term sum on both sides). The literal -0.5 enters as its exact value -1/2;
  the identity needs exactly that value (the cross term's coefficient is -2 · (-½) = 1).
-/
import Idealize.ShloMosaic.PureOps.Ideal
import Idealize.ShloMosaic.Lib.ValueIdx

noncomputable section

namespace Cert.Gabor

open Idealize.ShloMosaic Idealize.ShloMosaic.ValueIdx

/-- The float literal -0.5 denotes the real number -1/2. -/
theorem neg_half : Ideal.ofBits .f32 0xBF000000#32 = ((-1 / 2 : ℝ) : EReal) := by
  simp [Ideal.ofBits, Ideal.ieee, -EReal.coe_mul]; norm_num

/-- The float literal 0.0 denotes 0. -/
theorem pos_zero : Ideal.ofBits .f32 0x00000000#32 = 0 := by
  simp [Ideal.ofBits, Ideal.ieee]

/-- The direct arrangement: the squared distance summed over the two axes, then scaled. -/
def direct (x : (⟨2, ![262144, 2]⟩ : Shape).Idx → EReal) (W : (⟨2, ![256, 2]⟩ : Shape).Idx → EReal)
    (b : (⟨1, ![256]⟩ : Shape).Idx → EReal) (mu : (⟨3, ![1, 256, 2]⟩ : Shape).Idx → EReal)
    (g : (⟨1, ![256]⟩ : Shape).Idx → EReal) : (⟨2, ![262144, 256]⟩ : Shape).Idx → EReal := fun i =>
  Ideal.sin ((∑ k : Fin 2, x (ix2 (i 0) k) * W (ix2 (i 1) k)) + b (ix1 (i 1)))
    * Ideal.exp ((Ideal.ofBits .f32 0xBF000000#32
          * (Ideal.ofBits .f32 0x00000000#32
              + ∑ k : Fin 2, (x (ix2 (i 0) k) - mu (ix3 (0 : Fin 1) (i 1) k)) * (x (ix2 (i 0) k) - mu (ix3 (0 : Fin 1) (i 1) k))))
        * g (ix1 (i 1)))

/-- The expanded arrangement: the square multiplied out into per-feature coefficients. -/
def expanded (x : (⟨2, ![262144, 2]⟩ : Shape).Idx → EReal) (W : (⟨2, ![256, 2]⟩ : Shape).Idx → EReal)
    (b : (⟨1, ![256]⟩ : Shape).Idx → EReal) (mu : (⟨3, ![1, 256, 2]⟩ : Shape).Idx → EReal)
    (g : (⟨1, ![256]⟩ : Shape).Idx → EReal) : (⟨2, ![262144, 256]⟩ : Shape).Idx → EReal := fun i =>
  Ideal.sin ((x (ix2 (i 0) (0 : Fin 2)) * W (ix2 (i 1) (0 : Fin 2)) + x (ix2 (i 0) (1 : Fin 2)) * W (ix2 (i 1) (1 : Fin 2)))
      + b (ix1 (i 1)))
    * Ideal.exp (((Ideal.ofBits .f32 0xBF000000#32 * g (ix1 (i 1)))
            * (x (ix2 (i 0) (0 : Fin 2)) * x (ix2 (i 0) (0 : Fin 2)) + x (ix2 (i 0) (1 : Fin 2)) * x (ix2 (i 0) (1 : Fin 2)))
          + (x (ix2 (i 0) (0 : Fin 2)) * (g (ix1 (i 1)) * mu (ix3 (0 : Fin 1) (i 1) (0 : Fin 2)))
              + x (ix2 (i 0) (1 : Fin 2)) * (g (ix1 (i 1)) * mu (ix3 (0 : Fin 1) (i 1) (1 : Fin 2)))))
        + (Ideal.ofBits .f32 0xBF000000#32 * g (ix1 (i 1)))
            * (Ideal.ofBits .f32 0x00000000#32
                + ∑ k : Fin 2, mu (ix3 (0 : Fin 1) (i 1) k) * mu (ix3 (0 : Fin 1) (i 1) k)))

/-- Multiplying the square out, over the reals: with h = -1/2,
    (h·g)·(x₀² + x₁²) + (x₀·(g·m₀) + x₁·(g·m₁)) + (h·g)·(m₀² + m₁²) = h·((x₀-m₀)² + (x₁-m₁)²)·g. -/
theorem square_out (h x0 x1 m0 m1 g : ℝ) (hh : h = -1 / 2) :
    ((((h : EReal) * g) * ((x0 : EReal) * x0 + (x1 : EReal) * x1)
        + ((x0 : EReal) * ((g : EReal) * m0) + (x1 : EReal) * ((g : EReal) * m1)))
      + ((h : EReal) * g) * (0 + ((m0 : EReal) * m0 + (m1 : EReal) * m1)))
    = ((h : EReal) * (0 + (((x0 : EReal) - m0) * ((x0 : EReal) - m0) + ((x1 : EReal) - m1) * ((x1 : EReal) - m1)))) * g := by
  have e : (((h * g) * (x0 * x0 + x1 * x1) + (x0 * (g * m0) + x1 * (g * m1))) + (h * g) * (0 + (m0 * m0 + m1 * m1)))
      = (h * (0 + ((x0 - m0) * (x0 - m0) + (x1 - m1) * (x1 - m1)))) * g := by
    subst hh; ring
  exact_mod_cast e

/-- The two arrangements agree where the coordinates, the centres and the bandwidths are real numbers. -/
theorem expanded_eq_direct (x : (⟨2, ![262144, 2]⟩ : Shape).Idx → EReal) (W : (⟨2, ![256, 2]⟩ : Shape).Idx → EReal)
    (b : (⟨1, ![256]⟩ : Shape).Idx → EReal) (mu : (⟨3, ![1, 256, 2]⟩ : Shape).Idx → EReal)
    (g : (⟨1, ![256]⟩ : Shape).Idx → EReal)
    (hx : ∀ j, ∃ r : ℝ, x j = (r : EReal)) (hmu : ∀ j, ∃ r : ℝ, mu j = (r : EReal)) (hg : ∀ j, ∃ r : ℝ, g j = (r : EReal)) :
    expanded x W b mu g = direct x W b mu g := by
  funext i
  obtain ⟨x0, ex0⟩ := hx (ix2 (i 0) (0 : Fin 2))
  obtain ⟨x1, ex1⟩ := hx (ix2 (i 0) (1 : Fin 2))
  obtain ⟨m0, em0⟩ := hmu (ix3 (0 : Fin 1) (i 1) (0 : Fin 2))
  obtain ⟨m1, em1⟩ := hmu (ix3 (0 : Fin 1) (i 1) (1 : Fin 2))
  obtain ⟨γ, eγ⟩ := hg (ix1 (i 1))
  unfold expanded direct
  rw [Fin.sum_univ_two, Fin.sum_univ_two, Fin.sum_univ_two, ex0, ex1, em0, em1, eγ, neg_half, pos_zero]
  rw [square_out (-1 / 2) x0 x1 m0 m1 γ rfl]

end Cert.Gabor

end
-- ==== Proof.Finite.lean ====
/-
  From the precondition to real numbers.

  The precondition says of each float argument array that |v| < +∞ holds at every entry (five conjuncts, each a
  conjunction over the whole array). On the extended reals |v| is max v (-v), which is +∞ exactly at the two
  infinities; so every entry of every argument is a real number.
-/
import proofs.«158577_j82532091560569_2_alg».proof.Pre_finite_inputs
import Idealize.ShloMosaic.PureOps.Ideal
import Idealize.ShloMosaic.Lib.ValueIdx
import Idealize.ShloMosaic.Lib.ReduceAll

noncomputable section

namespace Cert.Gabor.Finite

open Idealize.ShloMosaic Cert.Pre_finite_inputs

/-- The float literal 0x7F800000 denotes +∞. -/
theorem pos_inf : Ideal.ofBits .f32 0x7F800000#32 = ⊤ := by simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [pos_inf] at h
  unfold Ideal.cmp at h
  induction x using EReal.rec with
  | bot => simp at h
  | coe r => exact ⟨r, rfl⟩
  | top => simp at h

instance : Subsingleton S_.Idx := ⟨fun a b => funext fun d => d.elim0⟩

variable [Cert.Pre_finite_inputs.Facts]

/-- Under the precondition every entry of the coordinates, the centres and the bandwidths is a real number (so is
    every entry of the weights and the phase, which the value proof does not need). -/
theorem entries_real (x : S262144x2.Idx → EReal) (W : S256x2.Idx → EReal) (b : S256.Idx → EReal)
    (mu : S1x256x2.Idx → EReal) (g : S256.Idx → EReal)
    (h : fn (F := Ideal) x W b mu g = fun _ => 1#1) :
    (∀ j, ∃ r : ℝ, x j = (r : EReal)) ∧ (∀ j, ∃ r : ℝ, mu j = (r : EReal)) ∧ (∀ j, ∃ r : ℝ, g j = (r : EReal)) := by
  have h0 := congrFun h ValueIdx.ix0
  dsimp only [fn, fn_part1] at h0
  obtain ⟨h1, hg⟩ := IntOp.andi_eq_one.1 h0
  obtain ⟨h2, hmu⟩ := IntOp.andi_eq_one.1 h1
  obtain ⟨h3, hb⟩ := IntOp.andi_eq_one.1 h2
  obtain ⟨hx, hW⟩ := IntOp.andi_eq_one.1 h3
  exact ⟨fun j => real_of_abs_lt (x j) (Host.reduce_andi_all _ _ _ _ _ hx j),
    fun j => real_of_abs_lt (mu j) (Host.reduce_andi_all _ _ _ _ _ hmu j),
    fun j => real_of_abs_lt (g j) (Host.reduce_andi_all _ _ _ _ _ hg j)⟩

end Cert.Gabor.Finite

end
-- ==== Proof.KernelPrefix.lean ====
/-
  What the kernel's launch finds in the five tables its wrapper computes on the host, as functions of the
  argument arrays, and each table read at an index.

  With o an output feature (0 ≤ o < 256) and k a coordinate axis (k = 0, 1):
    * the transposed weights        Wt[k, o]  = W[o, k]
    * the phase as a row            b2[0, o]  = b[o]
    * the scaled centres            mus[k, o] = gamma[o] · mu[0, o, k]
    * the quadratic coefficient     a[0, o]   = h · gamma[o]
    * the constant coefficient      c[0, o]   = (h · gamma[o]) · (z + Σ_k mu[0, o, k] · mu[0, o, k])
  where h is the float literal -0.5 and z the literal 0.0 the host sum starts from.
-/
import proofs.«158577_j82532091560569_2_alg».proof.Proof.Gen.KernelIdeal.Value
import Idealize.ShloMosaic.Lib.StableHlo.Run
import Idealize.ShloMosaic.Lib.ValueIdx
import Idealize.ShloMosaic.Lib.Pipeline.Value
import Idealize.ShloMosaic.PureOps.Ideal.Laws

noncomputable section

namespace Cert.Gabor.Prefix

open Cert.KernelIdeal Cert.KernelIdeal.Gen Idealize.ShloMosaic Idealize.ShloMosaic.TcCoe Idealize.SL.Sem
open Idealize.ShloMosaic.StableHlo Idealize.ShloMosaic.ValueIdx

/-! ## Layout operations of the wrapper, read at an index -/

/-- The transpose of a [256, 2] table at (k, o) is the table at (o, k). -/
theorem transposed_at (W : S256x2.Idx → EReal) (k : Fin 2) (o : Fin 256) :
    transpose S2x256 [1, 0] W transposes_S256x2_S2x256_1_0 (ix2 k o) = W (ix2 o k) :=
  transpose_apply [1, 0] W transposes_S256x2_S2x256_1_0 (ix2 k o) (ix2 o k) (fun b => match b with
    | ⟨0, _⟩ => rfl
    | ⟨1, _⟩ => rfl)

/-- A vector of 256 entries laid out as one row: the row's entry o is the vector's entry o. -/
theorem row_at (v : S256.Idx → EReal) (o : Fin 256) :
    shapeCast S1x256 v shapeCasts_S256_S1x256 (ix2 (0 : Fin 1) o) = v (ix1 o) :=
  shapeCast_apply v shapeCasts_S256_S1x256 (ix2 (0 : Fin 1) o) (ix1 o) (by
    rw [Shape.rowMajor_val_one, Shape.rowMajor_val_two]; show o.val = 0 * 256 + o.val; omega)

/-- The centres [1, 256, 2] with the leading unit axis dropped: entry (o, k) is the centre's (0, o, k). -/
theorem centres_at (mu : S1x256x2.Idx → EReal) (o : Fin 256) (k : Fin 2) :
    shapeCast S256x2 mu shapeCasts_S1x256x2_S256x2 (ix2 o k) = mu (ix3 (0 : Fin 1) o k) :=
  shapeCast_apply mu shapeCasts_S1x256x2_S256x2 (ix2 o k) (ix3 (0 : Fin 1) o k) (by
    rw [Shape.rowMajor_val_three, Shape.rowMajor_val_two]
    show (0 * 256 + o.val) * 2 + k.val = o.val * 2 + k.val; omega)

/-- The bandwidths repeated along the coordinate axis: entry (o, k) is gamma[o]. -/
theorem widths_at (g : S256.Idx → EReal) (o : Fin 256) (k : Fin 2) :
    broadcastInDim S256x2 ![0, 1] bcast_S256x1_S256x2_0_1 (broadcastInDim S256x1 ![0] bcast_S256_S256x1_0 g) (ix2 o k)
      = g (ix1 o) := by
  refine (broadcastInDim_apply _ bcast_S256x1_S256x2_0_1 _ (ix2 o k) (ix2 o (0 : Fin 1)) (fun a => match a with
    | ⟨0, _⟩ => by show o.val = if (256 : Nat) = 1 then 0 else o.val; rw [if_neg (by decide)]
    | ⟨1, _⟩ => by show 0 = if (1 : Nat) = 1 then 0 else k.val; rw [if_pos rfl])).trans ?_
  exact broadcastInDim_apply _ bcast_S256_S256x1_0 g (ix2 o (0 : Fin 1)) (ix1 o) (fun a => match a with
    | ⟨0, _⟩ => by show o.val = if (256 : Nat) = 1 then 0 else o.val; rw [if_neg (by decide)])

/-- A scalar literal repeated 256 times is the literal at every entry. -/
theorem splat_at (w : BitVec 32) (o : Fin 256) :
    broadcastInDim S256 ![] bcast_S_S256 (constant (F := Ideal) S_ .f32 w) (ix1 o) = Ideal.ofBits .f32 w :=
  broadcastInDim_apply _ bcast_S_S256 (constant (F := Ideal) S_ .f32 w) (ix1 o) ix0 (fun a => a.elim0)

/-- The host's sum over the coordinate axis of a [256, 2] table, started from init: at o, init plus the two entries
    of row o. -/
theorem rowsum_at (y : S256x2.Idx → EReal) (init : S_.Idx → EReal) (o : Fin 256) :
    Host.reduceAdd (F := Ideal) (φ := .f32) y init reducesTo_S256x2_S256_d1 h_S_ (ix1 o)
      = init (Shape.Idx.first h_S_) + ∑ k : Fin 2, y (ix2 o k) := by
  simp only [Host.reduceAdd, Ideal.hostReduceAdd_def]
  rw [Ideal.hostReduceAdd_single reducesTo_S256x2_S256_d1 (by decide)]
  refine congrArg (_ + ·) (Finset.sum_congr rfl fun k _ => ?_)
  exact congrArg y (funext fun a => Fin.ext (by match a with | ⟨0, _⟩ => rfl | ⟨1, _⟩ => rfl))

/-! ## The five tables as the launch finds them -/

variable (m : (ℓ : Loc nD τ sig) → Buf (Elt Ideal) ℓ)

/-- The argument arrays as launched, as arrays of extended reals: the coordinates x, the weights W, the phase b,
    the centres mu and the bandwidths gamma. -/
abbrev argX (c : Dev nD) : S262144x2.Idx → EReal := m ((c : Thread nD τ).loc main_arg0)
abbrev argW (c : Dev nD) : S256x2.Idx → EReal := m ((c : Thread nD τ).loc main_arg1)
abbrev argB (c : Dev nD) : S256.Idx → EReal := m ((c : Thread nD τ).loc main_arg2)
abbrev argMu (c : Dev nD) : S1x256x2.Idx → EReal := m ((c : Thread nD τ).loc main_arg3)
abbrev argGamma (c : Dev nD) : S256.Idx → EReal := m ((c : Thread nD τ).loc main_arg4)

/-- The transposed weights. -/
theorem V_weights (c : Dev nD) : (V m c main_v1 : S2x256.Idx → EReal)
    = transpose S2x256 [1, 0] (argW m c) transposes_S256x2_S2x256_1_0 := by
  dsimp only [Gen.V, Gen.hostOps0]; after_results

/-- The phase as a row. -/
theorem V_phase (c : Dev nD) : (V m c main_v15 : S1x256.Idx → EReal)
    = shapeCast S1x256 (argB m c) shapeCasts_S256_S1x256 := by
  dsimp only [Gen.V, Gen.hostOps0]; after_results; rfl

/-- The scaled centres, transposed. -/
theorem V_scaled (c : Dev nD) : (V m c main_v5 : S2x256.Idx → EReal)
    = transpose S2x256 [1, 0]
        (mulf (F := Ideal) (φ := .f32) (broadcastInDim S256x2 ![0, 1] bcast_S256x1_S256x2_0_1
                (broadcastInDim S256x1 ![0] bcast_S256_S256x1_0 (argGamma m c)))
              (shapeCast S256x2 (argMu m c) shapeCasts_S1x256x2_S256x2))
        transposes_S256x2_S2x256_1_0 := by
  dsimp only [Gen.V, Gen.hostOps0]; after_results; rfl

/-- The quadratic coefficient as a row. -/
theorem V_quad (c : Dev nD) : (V m c main_v10 : S1x256.Idx → EReal)
    = shapeCast S1x256
        (mulf (broadcastInDim S256 ![] bcast_S_S256 (constant (F := Ideal) S_ .f32 0xBF000000#32))
              (argGamma m c))
        shapeCasts_S256_S1x256 := by
  dsimp only [Gen.V, Gen.hostOps0]; after_results; rfl

/-- The constant coefficient as a row. -/
theorem V_const (c : Dev nD) : (V m c main_v14 : S1x256.Idx → EReal)
    = shapeCast S1x256
        (mulf (mulf (broadcastInDim S256 ![] bcast_S_S256 (constant (F := Ideal) S_ .f32 0xBF000000#32))
                    (argGamma m c))
              (Host.reduceAdd (F := Ideal) (φ := .f32)
                (mulf (shapeCast S256x2 (argMu m c) shapeCasts_S1x256x2_S256x2)
                      (shapeCast S256x2 (argMu m c) shapeCasts_S1x256x2_S256x2))
                (constant (F := Ideal) S_ .f32 0x00000000#32) reducesTo_S256x2_S256_d1 h_S_))
        shapeCasts_S256_S1x256 := by
  dsimp only [Gen.V, Gen.hostOps0]; after_results; rfl

/-! ## The five tables read at an index -/

theorem weights_at (c : Dev nD) (k : Fin 2) (o : Fin 256) :
    (V m c main_v1 : S2x256.Idx → EReal) (ix2 k o) = argW m c (ix2 o k) := by
  rw [V_weights]; exact transposed_at _ k o

theorem phase_at (c : Dev nD) (o : Fin 256) :
    (V m c main_v15 : S1x256.Idx → EReal) (ix2 (0 : Fin 1) o) = argB m c (ix1 o) := by
  rw [V_phase]; exact row_at _ o

theorem scaled_at (c : Dev nD) (k : Fin 2) (o : Fin 256) :
    (V m c main_v5 : S2x256.Idx → EReal) (ix2 k o)
      = argGamma m c (ix1 o) * argMu m c (ix3 (0 : Fin 1) o k) := by
  rw [V_scaled]
  refine (transposed_at _ k o).trans ?_
  rw [mulf_apply, widths_at, centres_at]

theorem quad_at (c : Dev nD) (o : Fin 256) :
    (V m c main_v10 : S1x256.Idx → EReal) (ix2 (0 : Fin 1) o)
      = Ideal.ofBits .f32 0xBF000000#32 * argGamma m c (ix1 o) := by
  rw [V_quad]
  refine (row_at _ o).trans ?_
  rw [mulf_apply, splat_at]

theorem const_at (c : Dev nD) (o : Fin 256) :
    (V m c main_v14 : S1x256.Idx → EReal) (ix2 (0 : Fin 1) o)
      = (Ideal.ofBits .f32 0xBF000000#32 * argGamma m c (ix1 o))
        * (Ideal.ofBits .f32 0x00000000#32
            + ∑ k : Fin 2, argMu m c (ix3 (0 : Fin 1) o k)
                          * argMu m c (ix3 (0 : Fin 1) o k)) := by
  rw [V_const]
  refine (row_at _ o).trans ?_
  rw [mulf_apply, mulf_apply, splat_at, rowsum_at]
  refine congrArg (_ * ·) (congrArg₂ (· + ·) rfl (Finset.sum_congr rfl fun k _ => ?_))
  rw [mulf_apply, centres_at]

end Cert.Gabor.Prefix

end
-- ==== Proof.KernelValue.lean ====
/-
  The kernel's output array after the run, as one function of the arrays its launch finds.

  The grid has 32 points; point t works on rows 8192·t … 8192·t + 8191 of the coordinates and writes the same rows of
  the output, all 256 features of them; the five per-feature tables are read whole at every point. What a point leaves
  at (row y₀ of its block, feature y₁) is

      sin((x₀·Wt[0,y₁] + x₁·Wt[1,y₁]) + b2[0,y₁])
        · exp((a[0,y₁]·(x₀·x₀ + x₁·x₁) + (x₀·mus[0,y₁] + x₁·mus[1,y₁])) + c[0,y₁])

  with (x₀, x₁) the block's row y₀ of the coordinates. Since the block's row y₀ is the array's row 8192·t + y₀ on both
  sides, every point's block is the restriction of ONE function of the whole arrays (pointwise below), and the 32 blocks
  cover the output, so the output array is that function.
-/
import proofs.«158577_j82532091560569_2_alg».proof.Proof.Gen.KernelIdeal.Value
import Idealize.ShloMosaic.Lib.ValueIdx
import Idealize.ShloMosaic.Lib.Pipeline.Value

noncomputable section

namespace Cert.Gabor.KernelValue

open Cert.KernelIdeal Cert.KernelIdeal.Gen Idealize.ShloMosaic Idealize.ShloMosaic.TcCoe Idealize.SL.Sem
open Idealize.ShloMosaic.ValueIdx
open Idealize.ShloMosaic.Pipeline (Dat)

/-- The output at (r, o) from the coordinates and the five tables as whole arrays. -/
def pointwise (X : S262144x2.Idx → EReal) (Wt : S2x256.Idx → EReal) (mus : S2x256.Idx → EReal)
    (b2 : S1x256.Idx → EReal) (a : S1x256.Idx → EReal) (c : S1x256.Idx → EReal) : S262144x256.Idx → EReal := fun i =>
  Ideal.sin ((X (ix2 (i 0) (0 : Fin 2)) * Wt (ix2 (0 : Fin 2) (i 1)) + X (ix2 (i 0) (1 : Fin 2)) * Wt (ix2 (1 : Fin 2) (i 1)))
      + b2 (ix2 (0 : Fin 1) (i 1)))
    * Ideal.exp ((a (ix2 (0 : Fin 1) (i 1))
            * (X (ix2 (i 0) (0 : Fin 2)) * X (ix2 (i 0) (0 : Fin 2)) + X (ix2 (i 0) (1 : Fin 2)) * X (ix2 (i 0) (1 : Fin 2)))
          + (X (ix2 (i 0) (0 : Fin 2)) * mus (ix2 (0 : Fin 2) (i 1)) + X (ix2 (i 0) (1 : Fin 2)) * mus (ix2 (1 : Fin 2) (i 1))))
        + c (ix2 (0 : Fin 1) (i 1)))

theorem hz : (![0, 0] : Fin 2 → Nat) = fun _ => 0 := funext fun a => by fin_cases a <;> rfl

/-- What the body leaves in the output block is the block-level function of its six loaded blocks. -/
theorem out_eq (x0 : Vec Ideal S8192x2 .f32) (x1 : Vec Ideal S2x256 .f32) (x2 : Vec Ideal S2x256 .f32)
    (x3 : Vec Ideal S1x256 .f32) (x4 : Vec Ideal S1x256 .f32) (x5 : Vec Ideal S1x256 .f32) :
    out0_6 x0 x1 x2 x3 x4 x5 = Value.E6 x0 x1 x3 x4 x2 x5 := by
  funext y
  unfold out0_6
  simp only [View.ld_unit_zero (S := S8192x2) hz, View.ld_unit_zero (S := S2x256) hz, View.ld_unit_zero (S := S1x256) hz]
  exact Value.canon6_eq x0 x1 x3 x4 x2 x5 y

/-- The printed index maps, decided over the 32 points: the coordinates' block moves with the output's along the rows,
    neither moves along its second axis, and the five tables stay at their one block. -/
theorem idx_facts : ∀ t : Fin cfg0.N,
    win0_0.index t (0 : Fin 2) = win0_6.index t (0 : Fin 2) ∧ win0_0.index t (1 : Fin 2) = 0
    ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Every block of rows is some point's. -/
theorem idx_onto : ∀ q : Fin 32, ∃ t : Fin cfg0.N, win0_6.index t = ![q.val, 0] :=
  (by decide +kernel : ∀ q : Fin 32, ∃ t : Fin grid0.N, win0_6.index t = ![q.val, 0])

variable (m : (ℓ : Loc nD τ sig) → Buf (Elt Ideal) ℓ) (ρ : Dev nD → PrngReg)

/-- The coordinates' block at point t, at a block index z lying in row j₀ and column col, is the array's entry in the
    row under the output block's element j, column col. -/
theorem coords_leaf (c : Dev nD) (t : Fin cfg0.N) (j : S8192x256.Idx) (z : S8192x2.Idx) (col : Fin 2)
    (h0 : (z 0).val = (j 0).val) (h1 : (z 1).val = col.val) :
    iblk m c 0 t z = V m c main_arg0 (ix2 (((cfg0.win 6).blk t).view.emb j 0) col) := by
  obtain ⟨e0, e1, e2, -⟩ := idx_facts t
  have hj0 : (j 0).val < 8192 := (j 0).isLt
  show V m c main_arg0 (((cfg0.win 0).blk t).view.emb z) = _
  refine congrArg (V m c main_arg0) (funext fun a => Fin.ext ?_)
  match a with
  | ⟨0, _⟩ => show win0_0.index t (0 : Fin 2) * 8192 + 1 * (z 0).val = win0_6.index t (0 : Fin 2) * 8192 + 1 * (j 0).val; omega
  | ⟨1, _⟩ => show win0_0.index t (1 : Fin 2) * 2 + 1 * (z 1).val = col.val; omega
/-- The transposed weights are read whole at every point: the block's entry (row, j₁) is the table's. -/
theorem weights_leaf (c : Dev nD) (t : Fin cfg0.N) (j : S8192x256.Idx) (z : S2x256.Idx) (row : Fin 2)
    (h0 : (z 0).val = row.val) (h1 : (z 1).val = (j 1).val) :
    iblk m c 1 t z = V m c main_v1 (ix2 row (((cfg0.win 6).blk t).view.emb j 1)) := by
  obtain ⟨-, -, e2, e3, e4, -, -, -, -, -, -, -, -⟩ := idx_facts t
  show V m c main_v1 (((cfg0.win 1).blk t).view.emb z) = _
  refine congrArg (V m c main_v1) (funext fun a => Fin.ext ?_)
  match a with
  | ⟨0, _⟩ => show win0_1.index t (0 : Fin 2) * 2 + 1 * (z 0).val = row.val; omega
  | ⟨1, _⟩ => show win0_1.index t (1 : Fin 2) * 256 + 1 * (z 1).val = win0_6.index t (1 : Fin 2) * 256 + 1 * (j 1).val; omega
/-- The scaled centres are read whole at every point: the block's entry (row, j₁) is the table's. -/
theorem scaled_leaf (c : Dev nD) (t : Fin cfg0.N) (j : S8192x256.Idx) (z : S2x256.Idx) (row : Fin 2)
    (h0 : (z 0).val = row.val) (h1 : (z 1).val = (j 1).val) :
    iblk m c 2 t z = V m c main_v5 (ix2 row (((cfg0.win 6).blk t).view.emb j 1)) := by
  obtain ⟨-, -, e2, -, -, e5, e6, -, -, -, -, -, -⟩ := idx_facts t
  show V m c main_v5 (((cfg0.win 2).blk t).view.emb z) = _
  refine congrArg (V m c main_v5) (funext fun a => Fin.ext ?_)
  match a with
  | ⟨0, _⟩ => show win0_2.index t (0 : Fin 2) * 2 + 1 * (z 0).val = row.val; omega
  | ⟨1, _⟩ => show win0_2.index t (1 : Fin 2) * 256 + 1 * (z 1).val = win0_6.index t (1 : Fin 2) * 256 + 1 * (j 1).val; omega
/-- The phase row is read whole at every point. -/
theorem phase_leaf (c : Dev nD) (t : Fin cfg0.N) (j : S8192x256.Idx) (z : S1x256.Idx)
    (h1 : (z 1).val = (j 1).val) :
    iblk m c 3 t z = V m c main_v15 (ix2 (0 : Fin 1) (((cfg0.win 6).blk t).view.emb j 1)) := by
  obtain ⟨-, -, e2, -, -, -, -, e7, e8, -, -, -, -⟩ := idx_facts t
  have hz0 : (z 0).val < 1 := (z 0).isLt
  show V m c main_v15 (((cfg0.win 3).blk t).view.emb z) = _
  refine congrArg (V m c main_v15) (funext fun a => Fin.ext ?_)
  match a with
  | ⟨0, _⟩ => show win0_3.index t (0 : Fin 2) * 1 + 1 * (z 0).val = 0; omega
  | ⟨1, _⟩ => show win0_3.index t (1 : Fin 2) * 256 + 1 * (z 1).val = win0_6.index t (1 : Fin 2) * 256 + 1 * (j 1).val; omega
/-- The quadratic coefficient's row is read whole at every point. -/
theorem quad_leaf (c : Dev nD) (t : Fin cfg0.N) (j : S8192x256.Idx) (z : S1x256.Idx)
    (h1 : (z 1).val = (j 1).val) :
    iblk m c 4 t z = V m c main_v10 (ix2 (0 : Fin 1) (((cfg0.win 6).blk t).view.emb j 1)) := by
  obtain ⟨-, -, e2, -, -, -, -, -, -, e9, e10, -, -⟩ := idx_facts t
  have hz0 : (z 0).val < 1 := (z 0).isLt
  show V m c main_v10 (((cfg0.win 4).blk t).view.emb z) = _
  refine congrArg (V m c main_v10) (funext fun a => Fin.ext ?_)
  match a with
  | ⟨0, _⟩ => show win0_4.index t (0 : Fin 2) * 1 + 1 * (z 0).val = 0; omega
  | ⟨1, _⟩ => show win0_4.index t (1 : Fin 2) * 256 + 1 * (z 1).val = win0_6.index t (1 : Fin 2) * 256 + 1 * (j 1).val; omega
/-- The constant coefficient's row is read whole at every point. -/
theorem const_leaf (c : Dev nD) (t : Fin cfg0.N) (j : S8192x256.Idx) (z : S1x256.Idx)
    (h1 : (z 1).val = (j 1).val) :
    iblk m c 5 t z = V m c main_v14 (ix2 (0 : Fin 1) (((cfg0.win 6).blk t).view.emb j 1)) := by
  obtain ⟨-, -, e2, -, -, -, -, -, -, -, -, e11, e12⟩ := idx_facts t
  have hz0 : (z 0).val < 1 := (z 0).isLt
  show V m c main_v14 (((cfg0.win 5).blk t).view.emb z) = _
  refine congrArg (V m c main_v14) (funext fun a => Fin.ext ?_)
  match a with
  | ⟨0, _⟩ => show win0_5.index t (0 : Fin 2) * 1 + 1 * (z 0).val = 0; omega
  | ⟨1, _⟩ => show win0_5.index t (1 : Fin 2) * 256 + 1 * (z 1).val = win0_6.index t (1 : Fin 2) * 256 + 1 * (j 1).val; omega

/-- What point t writes back is block t of the pointwise function of the arrays the launch finds. -/
theorem flushed_eq (c : Dev nD) (t : Fin cfg0.N) :
    (dats m 0 c).flushed 6 t = ((cfg0.win 6).blk t).view.read (Elt Ideal)
      (pointwise (V m c main_arg0) (V m c main_v1) (V m c main_v5) (V m c main_v15) (V m c main_v10) (V m c main_v14)) := by
  rw [Value.flushed6, out_eq]
  funext j
  show Value.E6 (iblk m c 0 t) (iblk m c 1 t) (iblk m c 3 t) (iblk m c 4 t) (iblk m c 2 t) (iblk m c 5 t) j
    = pointwise (V m c main_arg0) (V m c main_v1) (V m c main_v5) (V m c main_v15) (V m c main_v10) (V m c main_v14)
        (((cfg0.win 6).blk t).view.emb j)
  have x0 := fun z h0 h1 => coords_leaf m c t j z (0 : Fin 2) h0 h1
  have x1 := fun z h0 h1 => coords_leaf m c t j z (1 : Fin 2) h0 h1
  exact congrArg₂ (· * ·)
    (congrArg Ideal.sin (congrArg₂ (· + ·)
      (congrArg₂ (· + ·)
        (congrArg₂ (· * ·) (x0 (Value.ix6_0 j) rfl rfl) (weights_leaf m c t j (Value.ix6_1 j) (0 : Fin 2) rfl rfl))
        (congrArg₂ (· * ·) (x1 (Value.ix6_2 j) rfl rfl) (weights_leaf m c t j (Value.ix6_3 j) (1 : Fin 2) rfl rfl)))
      (phase_leaf m c t j (Value.ix6_4 j) rfl)))
    (congrArg Ideal.exp (congrArg₂ (· + ·)
      (congrArg₂ (· + ·)
        (congrArg₂ (· * ·) (quad_leaf m c t j (Value.ix6_5 j) rfl)
          (congrArg₂ (· + ·)
            (congrArg₂ (· * ·) (x0 (Value.ix6_6 j) rfl rfl) (x0 (Value.ix6_7 j) rfl rfl))
            (congrArg₂ (· * ·) (x1 (Value.ix6_8 j) rfl rfl) (x1 (Value.ix6_9 j) rfl rfl))))
        (congrArg₂ (· + ·)
          (congrArg₂ (· * ·) (x0 (Value.ix6_10 j) rfl rfl) (scaled_leaf m c t j (Value.ix6_11 j) (0 : Fin 2) rfl rfl))
          (congrArg₂ (· * ·) (x1 (Value.ix6_12 j) rfl rfl) (scaled_leaf m c t j (Value.ix6_13 j) (1 : Fin 2) rfl rfl))))
      (const_leaf m c t j (Value.ix6_14 j) rfl)))

/-- An index of the output is in point t's block iff each coordinate is in the block's range on its axis. -/
theorem mem_blk (t : Fin cfg0.N) (i : S262144x256.Idx) :
    i ∈ ((cfg0.win 6).blk t).view.set ↔ ∀ a : Fin 2, win0_6.index t a * S8192x256.size a ≤ (i a).val
      ∧ (i a).val < win0_6.index t a * S8192x256.size a + S8192x256.size a := by
  show i ∈ ((View.whole main_v16).slice (win0_6.rect t)).set ↔ _
  rw [View.set_slice_whole, Rect.mem_set_unit]
  exact Iff.rfl

/-- The 32 blocks of 8192 rows cover the output: row r is in the block of point r / 8192. -/
theorem cover (i : S262144x256.Idx) :
    ∃ t : Fin cfg0.N, (cfg0.win 6).flush t = true ∧ i ∈ ((cfg0.win 6).blk t).view.set := by
  have hi0 : (i 0).val < 262144 := (i 0).isLt
  have hi1 : (i 1).val < 256 := (i 1).isLt
  obtain ⟨t, ht⟩ := idx_onto ⟨(i 0).val / 8192, by omega⟩
  have q0 : win0_6.index t (0 : Fin 2) = (i 0).val / 8192 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 8192 ≤ (i 0).val ∧ (i 0).val < win0_6.index t (0 : Fin 2) * 8192 + 8192; omega
  | ⟨1, _⟩ => show win0_6.index t (1 : Fin 2) * 256 ≤ (i 1).val ∧ (i 1).val < win0_6.index t (1 : Fin 2) * 256 + 256; omega

/-- The output array after the run is the pointwise function of the arrays the launch finds. -/
theorem final (c : Dev nD) : (dats m 0 c).arrAt 6 cfg0.N
    = pointwise (V m c main_arg0) (V m c main_v1) (V m c main_v5) (V m c main_v15) (V m c main_v10) (V m c main_v14) :=
  (dats m 0 c).arrAt_eq_of_cover 6 _ (fun t _ => flushed_eq m c t) cover

end Cert.Gabor.KernelValue

end
-- ==== Proof.KernelResult.lean ====
/-
  The kernel's output array as the expanded arrangement of the five ARGUMENT arrays.

  The output is the pointwise function of the arrays the launch finds (the coordinates as launched, and the five tables
  the wrapper computed); each table entry is its closed form in the arguments (the transposed weights W[o,k], the phase
  b[o], the scaled centres gamma[o]·mu[0,o,k], the coefficients h·gamma[o] and (h·gamma[o])·(z + Σ_k mu[0,o,k]²));
  substituted leaf by leaf, the pointwise function is the expanded arrangement.
-/
import proofs.«158577_j82532091560569_2_alg».proof.Proof.Spec
import proofs.«158577_j82532091560569_2_alg».proof.Proof.KernelPrefix
import proofs.«158577_j82532091560569_2_alg».proof.Proof.KernelValue

noncomputable section

namespace Cert.Gabor.KernelResult

open Cert.KernelIdeal Cert.KernelIdeal.Gen Idealize.ShloMosaic Idealize.ShloMosaic.TcCoe Idealize.SL.Sem
open Idealize.ShloMosaic.ValueIdx Cert.Gabor.Prefix Cert.Gabor.KernelValue

variable (m : (ℓ : Loc nD τ sig) → Buf (Elt Ideal) ℓ)

/-- The pointwise function of the found arrays is the expanded arrangement of the arguments. -/
theorem pointwise_eq_expanded (c : Dev nD) :
    pointwise (V m c main_arg0) (V m c main_v1) (V m c main_v5) (V m c main_v15) (V m c main_v10) (V m c main_v14)
      = expanded (argX m c) (argW m c) (argB m c) (argMu m c) (argGamma m c) := by
  funext i
  obtain ⟨r, o, rfl⟩ : ∃ (r : Fin 262144) (o : Fin 256), i = ix2 r o := ⟨i 0, i 1, eq_ix2 i⟩
  have hx : ∀ k : Fin 2, (V m c main_arg0 : S262144x2.Idx → EReal) (ix2 r k) = argX m c (ix2 r k) :=
    fun k => congrFun (V_main_arg0 m c) (ix2 r k)
  exact congrArg₂ (· * ·)
    (congrArg Ideal.sin (congrArg₂ (· + ·)
      (congrArg₂ (· + ·)
        (congrArg₂ (· * ·) (hx 0) (weights_at m c 0 o))
        (congrArg₂ (· * ·) (hx 1) (weights_at m c 1 o)))
      (phase_at m c o)))
    (congrArg Ideal.exp (congrArg₂ (· + ·)
      (congrArg₂ (· + ·)
        (congrArg₂ (· * ·) (quad_at m c o)
          (congrArg₂ (· + ·) (congrArg₂ (· * ·) (hx 0) (hx 0)) (congrArg₂ (· * ·) (hx 1) (hx 1))))
        (congrArg₂ (· + ·)
          (congrArg₂ (· * ·) (hx 0) (scaled_at m c 0 o))
          (congrArg₂ (· * ·) (hx 1) (scaled_at m c 1 o))))
      (const_at m c o)))

/-- The output array after the run is the expanded arrangement of the arguments. -/
theorem result (c : Dev nD) : (dats m 0 c).arrAt 6 cfg0.N
    = expanded (argX m c) (argW m c) (argB m c) (argMu m c) (argGamma m c) :=
  (KernelValue.final m c).trans (pointwise_eq_expanded m c)

end Cert.Gabor.KernelResult

end
-- ==== Proof.RefValue.lean ====
/-
  The reference's result is the direct arrangement of the feature map.

  Read one operation at a time at the output index (r, o): the inner product is the host's dot_general over the two
  coordinate axes of x[r, ·] against the transposed weights, the squared distance its sum over the two axes of
  (x[r, k] - mu[0, o, k])², and every broadcast reads its operand at the coordinates it keeps. Nothing here needs the
  entries to be real.
-/
import proofs.«158577_j82532091560569_2_alg».proof.Proof.Gen.ReferenceIdeal.Read
import proofs.«158577_j82532091560569_2_alg».proof.Proof.Spec

noncomputable section

namespace Cert.Gabor.RefValue

open Cert.ReferenceIdeal Cert.ReferenceIdeal.Read Idealize.ShloMosaic Idealize.ShloMosaic.ValueIdx

/-! ## Where each operand is read, at the output index (r, o) and the coordinate axis k -/

theorem lhs_idx (r : Fin 262144) (o : Fin 256) (k : Fin 2) : lidx_main_v1 (ix2 r o) k = ix2 r k :=
  funext fun a => Fin.ext (by match a with | ⟨0, _⟩ => rfl | ⟨1, _⟩ => rfl)

theorem rhs_idx (r : Fin 262144) (o : Fin 256) (k : Fin 2) : idx_main_v0 (ridx_main_v1 (ix2 r o) k) = ix2 o k :=
  funext fun a => Fin.ext (by match a with | ⟨0, _⟩ => rfl | ⟨1, _⟩ => rfl)

theorem phase_idx (r : Fin 262144) (o : Fin 256) : idx_main_v2 (idx_main_v3 (ix2 r o)) = ix1 o :=
  funext fun a => Fin.ext (by match a with | ⟨0, _⟩ => rfl)

theorem coord_idx (r : Fin 262144) (o : Fin 256) (k : Fin 2) :
    idx_main_v5 (idx_main_v6 (idx_main_v10 (ix2 r o) k)) = ix2 r k :=
  funext fun a => Fin.ext (by match a with | ⟨0, _⟩ => rfl | ⟨1, _⟩ => rfl)

theorem centre_idx (r : Fin 262144) (o : Fin 256) (k : Fin 2) :
    idx_main_v7 (idx_main_v10 (ix2 r o) k) = ix3 (0 : Fin 1) o k :=
  funext fun a => Fin.ext (by match a with | ⟨0, _⟩ => rfl | ⟨1, _⟩ => rfl | ⟨2, _⟩ => rfl)

theorem width_idx (r : Fin 262144) (o : Fin 256) : idx_main_v14 (idx_main_v15 (ix2 r o)) = ix1 o :=
  funext fun a => Fin.ext (by match a with | ⟨0, _⟩ => rfl)

/-- The reference's last stage is the direct arrangement of its five arguments. -/
theorem reference_eq (x : S262144x2.Idx → EReal) (W : S256x2.Idx → EReal) (b : S256.Idx → EReal)
    (mu : S1x256x2.Idx → EReal) (g : S256.Idx → EReal) :
    val_main_v18 (F := Ideal) x W b mu g = direct x W b mu g := by
  funext i
  obtain ⟨r, o, rfl⟩ : ∃ (r : Fin 262144) (o : Fin 256), i = ix2 r o := ⟨i 0, i 1, eq_ix2 i⟩
  rw [val_main_v18_apply, val_main_v11_apply, val_main_v4_apply, val_main_v1_apply, val_main_v3_apply, val_main_v2_apply,
    val_main_v17_apply, val_main_v16_apply, val_main_v13_apply, val_main_v12_apply, val_main_cst_0_apply, val_main_v10_apply,
    val_main_cst_apply, val_main_v15_apply, val_main_v14_apply]
  simp only [val_main_v9_apply, val_main_v8_apply, val_main_v6_apply, val_main_v5_apply, val_main_v7_apply, val_main_v0_apply,
    lhs_idx, rhs_idx, phase_idx, coord_idx, centre_idx, width_idx,
    Ideal.mulf_def, Ideal.addf_def, Ideal.subf_def, Ideal.ofBits_def, Ideal.hostUnary_sin_def, Ideal.hostUnary_exp_def]
  rfl

end Cert.Gabor.RefValue

end
-- ==== Proof.lean ====
/-
  The kernel and its reference compute one function of the five arguments, on the extended reals.

  For a point x_r of the plane (row r of the coordinates) and an output feature o the reference returns

      sin(⟨x_r, W_o⟩ + b[o]) · exp(-½ · |x_r - mu_o|² · gamma[o]),

  the squared distance summed over the two axes. The kernel multiplies the square out: its wrapper computes, per
  feature, the coefficients -½·gamma[o], gamma[o]·mu_o and -½·gamma[o]·|mu_o|², and its body, on blocks of 8192 rows,
  evaluates

      sin(x₀·W[o,0] + x₁·W[o,1] + b[o]) · exp((-½·gamma[o])·(x₀² + x₁²) + (x₀·gamma[o]·mu[o,0] + x₁·gamma[o]·mu[o,1])
                                               + (-½·gamma[o])·|mu_o|²).

  The inner product is the same two-term sum on both sides. The exponents agree by distributivity, which on the
  extended reals needs the coordinates, the centres and the bandwidths to be real numbers: that is what the
  precondition gives (every entry of every argument has |v| < +∞). The literal -0.5 is the exact -1/2 the identity needs.

  Proof/Spec.lean states the two arrangements and the law between them; Proof/RefValue.lean reads the reference's result as
  the direct arrangement; Proof/KernelValue.lean reads the kernel's output array, block by block, as one function of the
  arrays its launch finds, Proof/KernelPrefix.lean reads those arrays (the wrapper's tables) in the arguments, and
  Proof/KernelResult.lean joins the two into the expanded arrangement; Proof/Finite.lean turns the precondition into real
  entries. The three frames are the generated runs; the idealization rewrote nothing, so nothing is to be preserved.
-/
import proofs.«158577_j82532091560569_2_alg».proof.Defs
import proofs.«158577_j82532091560569_2_alg».proof.Proof.Gen.Kernel
import proofs.«158577_j82532091560569_2_alg».proof.Proof.Gen.Kernel.Skeleton
import proofs.«158577_j82532091560569_2_alg».proof.Proof.Gen.Kernel.Launch
import proofs.«158577_j82532091560569_2_alg».proof.Proof.Gen.Kernel.Points
import proofs.«158577_j82532091560569_2_alg».proof.Proof.Gen.Kernel.Frame
import proofs.«158577_j82532091560569_2_alg».proof.Proof.Gen.KernelIdeal
import proofs.«158577_j82532091560569_2_alg».proof.Proof.Gen.KernelIdeal.Skeleton
import proofs.«158577_j82532091560569_2_alg».proof.Proof.Gen.KernelIdeal.Launch
import proofs.«158577_j82532091560569_2_alg».proof.Proof.Gen.KernelIdeal.Points
import proofs.«158577_j82532091560569_2_alg».proof.Proof.Gen.KernelIdeal.Frame
import proofs.«158577_j82532091560569_2_alg».proof.Proof.Gen.ReferenceIdeal
import proofs.«158577_j82532091560569_2_alg».proof.Proof.Gen.Pre_finite_inputs
import proofs.«158577_j82532091560569_2_alg».proof.Proof.Gen.KernelIdeal.Value
import proofs.«158577_j82532091560569_2_alg».proof.Proof.Gen.ReferenceIdeal.Run
import proofs.«158577_j82532091560569_2_alg».proof.Proof.Gen.ReferenceIdeal.Read
import proofs.«158577_j82532091560569_2_alg».proof.Proof.Spec
import proofs.«158577_j82532091560569_2_alg».proof.Proof.Finite
import proofs.«158577_j82532091560569_2_alg».proof.Proof.KernelResult
import proofs.«158577_j82532091560569_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the direct arrangement of the arguments: the
    reference by reading its operations, the kernel because its expanded arrangement is the direct one where the
    coordinates, the centres and the bandwidths are real, which the precondition says they are. -/
theorem algebraic : Cert.algebraic_KernelIdeal_ReferenceIdeal := by
  intro m ρ m' ρ' hpre hagree
  refine ⟨fun c => Cert.Gabor.direct (Cert.Gabor.Prefix.argX m c) (Cert.Gabor.Prefix.argW m c) (Cert.Gabor.Prefix.argB m c)
    (Cert.Gabor.Prefix.argMu m c) (Cert.Gabor.Prefix.argGamma m c), ?_, ?_⟩
  · refine (θ_run Cert.KernelIdeal.defs _ _).mono (fun r h c => ⟨(h c).1.trans ?_, (h c).2⟩)
      (Cert.KernelIdeal.Value.run_blocks m ρ)
    obtain ⟨hx, hmu, hg⟩ := Cert.Gabor.Finite.entries_real (Cert.Gabor.Prefix.argX m c) (Cert.Gabor.Prefix.argW m c)
      (Cert.Gabor.Prefix.argB m c) (Cert.Gabor.Prefix.argMu m c) (Cert.Gabor.Prefix.argGamma m c) (hpre c)
    exact (Cert.Gabor.KernelResult.result m c).trans (Cert.Gabor.expanded_eq_direct _ _ _ _ _ hx hmu hg)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.Gabor.RefValue.reference_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
